-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000 : S_.BroadcastsInDim S100000 (![] : Fin 0 → Fin S100000.rank)
  reducesTo_S100000_S_d0 : S100000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S64 .f32) (main_arg9 : FVec F S64x2 .f32) (main_arg10 : FVec F S2 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x2 .f32 := Host.absf main_arg9
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S128x64 .f32) (main_arg8 : FVec F S64 .f32) (main_arg9 : FVec F S64x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x256 .f32) (main_arg1 : IVec S2x1600000 32) (main_arg2 : FVec F S100000 .f32) (main_arg3 : FVec F S256x128 .f32) (main_arg4 : FVec F S128 .f32) (main_arg5 : FVec F S256x128 .f32) (main_arg6 : FVec F S128 .f32) (main_arg7 : FVec F S128x64 .f32) (main_arg8 : FVec F S64 .f32) (main_arg9 : FVec F S64x2 .f32) (main_arg10 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x256 : Shape := ⟨2, ![100000, 256]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S256x256 : Shape := ⟨2, ![256, 256]⟩
abbrev S5000x256 : Shape := ⟨2, ![5000, 256]⟩
abbrev S100000x128 : Shape := ⟨2, ![100000, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x64 : Shape := ⟨2, ![1, 64]⟩
abbrev S1x2 : Shape := ⟨2, ![1, 2]⟩
abbrev S100000x2 : Shape := ⟨2, ![100000, 2]⟩
abbrev S5000x128 : Shape := ⟨2, ![5000, 128]⟩
abbrev S5000x2 : Shape := ⟨2, ![5000, 2]⟩
abbrev S5000x64 : Shape := ⟨2, ![5000, 64]⟩

abbrev nBuf : Space → Nat
  | .hbm => 92
  | .vmem => 17
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S256x256, .f32⟩
  | .hbm, ⟨12, _⟩ => ⟨S100000x256, .f32⟩
  | .hbm, ⟨13, _⟩ => ⟨S100000x128, .f32⟩
  | .hbm, ⟨14, _⟩ => ⟨S100000x128, .f32⟩
  | .hbm, ⟨15, _⟩ => ⟨S100000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S1x1600000, .i32⟩
  | .hbm, ⟨20, _⟩ => ⟨S1600000, .i32⟩
  | .hbm, ⟨21, _⟩ => ⟨S1700000, .i32⟩
  | .hbm, ⟨22, _⟩ => ⟨S_, .f32⟩
  | .hbm, ⟨23, _⟩ => ⟨S1700000, .f32⟩
  | .hbm, ⟨24, _⟩ => ⟨S_, .f32⟩
  | .hbm, ⟨25, _⟩ => ⟨S100000, .f32⟩
  | .hbm, ⟨26, _⟩ => ⟨S1700000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S1x128, .f32⟩
  | .hbm, ⟨89, _⟩ => ⟨S1x64, .f32⟩
  | .hbm, ⟨90, _⟩ => ⟨S1x2, .f32⟩
  | .hbm, ⟨91, _⟩ => ⟨S100000x2, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S128x64, .f32⟩
  | .local _ .vmem, ⟨12, _⟩ => ⟨S1x64, .f32⟩
  | .local _ .vmem, ⟨13, _⟩ => ⟨S64x2, .f32⟩
  | .local _ .vmem, ⟨14, _⟩ => ⟨S1x2, .f32⟩
  | .local _ .vmem, ⟨15, _⟩ => ⟨S5000x2, .f32⟩
  | .local _ .vmem, ⟨16, _⟩ => ⟨S5000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem8_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  concatenates_S256x128_S256x128_S256x256_d1 : Shape.Concatenates [S256x128, S256x128] S256x256 1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S100000x256_S100000x128_0_0 : S100000x256.Slices ![0, 0] S100000x128
  slices_S100000x256_S100000x128_0_128 : S100000x256.Slices ![0, 128] S100000x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S64_S1x64 : S64.ShapeCasts S1x64
  shapeCasts_S2_S1x2 : S2.ShapeCasts S1x2
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x256_S256x256_S5000x256_1_0_0_1_n_n_wf : DotDims.WF S5000x256 S256x256 S5000x256 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x2.size a ≤ S64x2.size a
  hwx1_6 : ∀ i : grid1.Coords, EltTy.bits .f32 = 32 ∨ (Rect.block (s := S64x2) S64x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x2.size a ≤ S100000x2.size a
  hwx1_8 : ∀ i : grid1.Coords, EltTy.bits .f32 = 32 ∨ (Rect.block (s := S100000x2) S5000x2.size (cc1_transform_8 i) (hinb1_8 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v63) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v64) S5000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000x128 : Shape := ⟨2, ![100000, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 155
  | .vmem => 0
  | .smem => 0
  | _ => 0

abbrev hbmTy0_0 (i : Nat) : BufTy := match i % 128 with
  | 0 => ⟨S100000x256, .f32⟩
  | 1 => ⟨S2x1600000, .i32⟩
  | 2 => ⟨S100000, .f32⟩
  | 3 => ⟨S256x128, .f32⟩
  | 4 => ⟨S128, .f32⟩
  | 5 => ⟨S256x128, .f32⟩
  | 6 => ⟨S128, .f32⟩
  | 7 => ⟨S128x64, .f32⟩
  | 8 => ⟨S64, .f32⟩
  | 9 => ⟨S64x2, .f32⟩
  | 10 => ⟨S2, .f32⟩
  | 11 => ⟨S100000x128, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S100000, .i32⟩
  | 76 => ⟨S1x1600000, .i32⟩
  | 77 => ⟨S1600000, .i32⟩
  | 78 => ⟨S1700000, .i32⟩
  | 79 => ⟨S1x1600000, .i32⟩
  | 80 => ⟨S1600000, .i32⟩
  | 81 => ⟨S1700000, .i32⟩
  | 82 => ⟨S_, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x128, .f32⟩
  | 124 => ⟨S1700000x1, .f32⟩
  | 125 => ⟨S1700000x128, .f32⟩
  | 126 => ⟨S1700000x128, .f32⟩
  | 127 => ⟨S_, .f32⟩
  | _ => ⟨S100000x256, .f32⟩

abbrev hbmTy0_1 (i : Nat) : BufTy := match i % 128 with
  | 0 => ⟨S100000x128, .f32⟩
  | 1 => ⟨S1700000x1, .i32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000x2, .f32⟩
  | 24 => ⟨S1x2, .f32⟩
  | 25 => ⟨S100000x2, .f32⟩
  | 26 => ⟨S100000x2, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_c_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_15 : Ref sig .tc := ⟨.hbm, 105, rfl⟩
abbrev main_v71 : Ref sig .tc := ⟨.hbm, 106, rfl⟩
abbrev main_v72 : Ref sig .tc := ⟨.hbm, 107, rfl⟩
abbrev main_c_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_c_18 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call3_cst : Ref sig .tc := ⟨.hbm, 134, rfl⟩
abbrev main_call3_v0 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_v97 : Ref sig .tc := ⟨.hbm, 139, rfl⟩
abbrev main_cst_21 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_call4_cst : Ref sig .tc := ⟨.hbm, 148, rfl⟩
abbrev main_call4_v0 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Spec.lean ====
/-
  The specification: what the classifier computes from the two aggregated feature maps, index by index, at the
  ideal values (extended reals, exact operations).

  For a node (row) `r`, with `A` and `B` the two aggregated maps (M × 128), `b4`, `b6` their biases, `Wf`, `b8` the
  fusion layer and `Wc`, `b10` the output layer:
    fused(r, k)  = ½ · max(A(r,k) + b4(k), 0) + ½ · max(B(r,k) + b6(k), 0)
    hidden(r, j) = max(Σ_k fused(r,k) · Wf(k,j) + b8(j), 0)
    logit(r, q)  = Σ_j hidden(r,j) · Wc(j,q) + b10(q).
  The number of rows `M` is a parameter, so that the same formula speaks of a block of rows and of the whole array:
  a row's logits depend on the maps only through that row (`logitAt_congr`). Also one entry of a matrix product,
  `Σ_k l(i,k) · r(k,j)`, and the product as an array.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals. -/
abbrev Mat (a b : Nat) : Type := (⟨2, ![a, b]⟩ : Shape).Idx → EReal

/-- The word of 0.0 and the word of 0.5, at their ideal values (never evaluated: the same words on both sides). -/
abbrev zero : EReal := Ideal.ofBits .f32 0x00000000#32
abbrev half : EReal := Ideal.ofBits .f32 0x3F000000#32

/-- The zero offsets of a whole-buffer access of a matrix, however the zeros are spelt. -/
theorem hz2 : (![0, 0] : Fin 2 → Nat) = fun _ => 0 := funext fun a => by fin_cases a <;> rfl

/-- One entry of a matrix product. -/
def dotAt {M K N : Nat} (l : Mat M K) (r : Mat K N) (i : Fin M) (j : Fin N) : EReal :=
  ∑ k : Fin K, l (ix2 i k) * r (ix2 k j)

/-- A matrix product, as an array. -/
def prod {M K N : Nat} (l : Mat M K) (r : Mat K N) : Mat M N := fun i => dotAt l r (i 0) (i 1)

theorem prod_ix2 {M K N : Nat} (l : Mat M K) (r : Mat K N) (i : Fin M) (j : Fin N) :
    prod l r (ix2 i j) = dotAt l r i j := rfl

/-- The fused feature of row `r` in column `k`. -/
def fusedAt {M : Nat} (A B : Mat M 128) (b4 b6 : Fin 128 → EReal) (r : Fin M) (k : Fin 128) : EReal :=
  half * max (A (ix2 r k) + b4 k) zero + half * max (B (ix2 r k) + b6 k) zero

/-- The hidden feature of row `r` in column `j`. -/
def hiddenAt {M : Nat} (A B : Mat M 128) (b4 b6 : Fin 128 → EReal) (Wf : Mat 128 64) (b8 : Fin 64 → EReal)
    (r : Fin M) (j : Fin 64) : EReal :=
  max ((∑ k : Fin 128, fusedAt A B b4 b6 r k * Wf (ix2 k j)) + b8 j) zero

/-- The logit of row `r` for class `q`. -/
def logitAt {M : Nat} (A B : Mat M 128) (b4 b6 : Fin 128 → EReal) (Wf : Mat 128 64) (b8 : Fin 64 → EReal)
    (Wc : Mat 64 2) (b10 : Fin 2 → EReal) (r : Fin M) (q : Fin 2) : EReal :=
  (∑ j : Fin 64, hiddenAt A B b4 b6 Wf b8 r j * Wc (ix2 j q)) + b10 q

/-- The whole result array. -/
def logits {M : Nat} (A B : Mat M 128) (b4 b6 : Fin 128 → EReal) (Wf : Mat 128 64) (b8 : Fin 64 → EReal)
    (Wc : Mat 64 2) (b10 : Fin 2 → EReal) : Mat M 2 :=
  fun i => logitAt A B b4 b6 Wf b8 Wc b10 (i 0) (i 1)

/-- A row's logits depend on the two maps only through that row. -/
theorem logitAt_congr {M M' : Nat} (A B : Mat M 128) (A' B' : Mat M' 128) (b4 b6 : Fin 128 → EReal) (Wf : Mat 128 64)
    (b8 : Fin 64 → EReal) (Wc : Mat 64 2) (b10 : Fin 2 → EReal) (r : Fin M) (r' : Fin M') (q : Fin 2)
    (hA : ∀ k : Fin 128, A (ix2 r k) = A' (ix2 r' k)) (hB : ∀ k : Fin 128, B (ix2 r k) = B' (ix2 r' k)) :
    logitAt A B b4 b6 Wf b8 Wc b10 r q = logitAt A' B' b4 b6 Wf b8 Wc b10 r' q := by
  unfold logitAt hiddenAt fusedAt
  simp only [hA, hB]

/-- The logits depend on the two maps only through their values: equal maps, equal logits (as arrays). -/
theorem logits_congr {M : Nat} (A B A' B' : Mat M 128) (b4 b6 : Fin 128 → EReal) (Wf : Mat 128 64)
    (b8 : Fin 64 → EReal) (Wc : Mat 64 2) (b10 : Fin 2 → EReal) (hA : A = A') (hB : B = B') :
    logits A B b4 b6 Wf b8 Wc b10 = logits A' B' b4 b6 Wf b8 Wc b10 := by rw [hA, hB]

end Cert.Spec

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.RefSide.lean ====
/-
  The reference, read against the specification.

  The reference computes, for each of the two weight matrices `W`: the product `x · W`; then the aggregation over the
  edges — gather the product's rows at the edges' source nodes, scale each by the edge's normalisation weight,
  scatter-add at the destination nodes —; then bias, `max(·, 0)`; then the half-and-half fusion, the fusion layer, the
  output layer. The aggregation is ONE function `agg` of the product and the edge list, the same for both weight
  matrices (the reference recomputes the edge weights for the second one from the same edge list by the same
  operations). It is never opened: the kernel's program applies the same function.
  The rest — `tail` — is read at an index: at the ideal values a host `dot_general` is the sum over the contracted
  column, a broadcast bias is the bias at the column, and the result is the specification's `logitAt`.
-/
import proofs.«128187_j1855425872278_1_alg».proof.Proof.RefReadP
import proofs.«128187_j1855425872278_1_alg».proof.Proof.Spec
import proofs.«128187_j1855425872278_1_alg».proof.Proof.LibPlainDot
import Idealize.ShloMosaic.Lib.ValueIdx

set_option maxRecDepth 16384

noncomputable section

namespace Cert.ReferenceIdeal.Hand

open Cert.ReferenceIdeal Cert.ReferenceIdeal.Gen Cert.ReferenceIdeal.ReadP
open Idealize.ShloMosaic Idealize.ShloMosaic.TcCoe Idealize.ShloMosaic.ValueIdx Idealize.SL.Sem
open Cert.Spec (logitAt hiddenAt fusedAt logits half zero)

/-- THE AGGREGATION over the edges of a node-feature map `xw` (100000 × 128), for the edge list `e`: rows gathered at
    the source nodes, scaled by the edges' weights, scatter-added at the destination nodes into zeros. -/
def agg (xw : FVec Ideal S100000x128 .f32) (e : IVec S2x1600000 32) : FVec Ideal S100000x128 .f32 :=
  Host.scatterAdd (F := Ideal) scatter_S100000x128_S1700000x1_S1700000x128_1_0_0_1 (val_main_v41 (F := Ideal) : FVec Ideal S100000x128 .f32)
    (val_main_v42 (F := Ideal) e)
    (mulf (F := Ideal) (Host.gather gather_S100000x128_S1700000x1_S1700000x128_1_0_n_n_0_1_1128 xw (val_main_v36 (F := Ideal) e) : FVec Ideal S1700000x128 .f32)
      (val_main_v39 (F := Ideal) e : FVec Ideal S1700000x128 .f32))

/-- The aggregation, as a function of the node-feature map `xw`, the edges' source and destination node lists
    `src` and `dst` (the self-loops included) and the nodes' normalising factors `dinv`: the rows of `xw` gathered at the
    source nodes (a negative index counting from the end), each scaled by `dinv(src) · dinv(dst)`, scatter-added at the
    destination nodes into zeros. -/
def aggOf (xw : FVec Ideal S100000x128 .f32) (src dst : IVec S1700000 32) (dinv : FVec Ideal S100000 .f32) : FVec Ideal S100000x128 .f32 :=
  Host.scatterAdd (F := Ideal) scatter_S100000x128_S1700000x1_S1700000x128_1_0_0_1 (val_main_v41 (F := Ideal) : FVec Ideal S100000x128 .f32)
    (broadcastInDim S1700000x1 ![0] bcast_S1700000_S1700000x1_0 dst)
    (mulf (F := Ideal)
      (Host.gather gather_S100000x128_S1700000x1_S1700000x128_1_0_n_n_0_1_1128 xw
        (broadcastInDim S1700000x1 ![0] bcast_S1700000_S1700000x1_0 (select (cmpi .slt src (val_main_v31 (F := Ideal))) (addi src (val_main_v33 (F := Ideal))) src)) : FVec Ideal S1700000x128 .f32)
      (broadcastInDim S1700000x128 ![0, 1] bcast_S1700000x1_S1700000x128_0_1
        (broadcastInDim S1700000x1 ![0] bcast_S1700000_S1700000x1_0
          (mulf (F := Ideal)
            (Host.gather gather_S100000_S1700000x1_S1700000_n_0_n_n_0_1_1 dinv
              (broadcastInDim S1700000x1 ![0] bcast_S1700000_S1700000x1_0 (select (cmpi .slt src (val_main_v16 (F := Ideal))) (addi src (val_main_v18 (F := Ideal))) src)) : FVec Ideal S1700000 .f32)
            (Host.gather gather_S100000_S1700000x1_S1700000_n_0_n_n_0_1_1 dinv
              (broadcastInDim S1700000x1 ![0] bcast_S1700000_S1700000x1_0 (select (cmpi .slt dst (val_main_v23 (F := Ideal))) (addi dst (val_main_v25 (F := Ideal))) dst)) : FVec Ideal S1700000 .f32)) : FVec Ideal S1700000x1 .f32) : FVec Ideal S1700000x128 .f32))

/-- The aggregation of a map over an edge list is `aggOf` at the edge list's source and destination node lists and
    normalising factors. -/
theorem agg_eq (xw : FVec Ideal S100000x128 .f32) (e : IVec S2x1600000 32) :
    agg xw e = aggOf xw (val_main_v4 (F := Ideal) e) (val_main_v7 (F := Ideal) e) (val_main_v15 (F := Ideal) e) := rfl

/-- The first aggregated map is the aggregation of `x · W_homo`. -/
theorem v43_eq (x0 : (⟨S100000x256, .f32⟩ : BufTy).Contents (Elt Ideal)) (x1 : (⟨S2x1600000, .i32⟩ : BufTy).Contents (Elt Ideal)) (x3 : (⟨S256x128, .f32⟩ : BufTy).Contents (Elt Ideal)) :
    val_main_v43 (F := Ideal) x0 x1 x3 = agg (val_main_v0 (F := Ideal) x0 x3) x1 := rfl

/-- The second pass recomputes, from the same edge list by the same operations, the zeros, the destination index
    column, the source index column and the edge weights of the first. -/
theorem v89_eq : val_main_v89 (F := Ideal) = val_main_v41 (F := Ideal) := rfl
theorem v90_eq (x1 : (⟨S2x1600000, .i32⟩ : BufTy).Contents (Elt Ideal)) : val_main_v90 (F := Ideal) x1 = val_main_v42 (F := Ideal) x1 := rfl
theorem v84_eq (x1 : (⟨S2x1600000, .i32⟩ : BufTy).Contents (Elt Ideal)) : val_main_v84 (F := Ideal) x1 = val_main_v36 (F := Ideal) x1 := rfl
theorem v87_eq (x1 : (⟨S2x1600000, .i32⟩ : BufTy).Contents (Elt Ideal)) : val_main_v87 (F := Ideal) x1 = val_main_v39 (F := Ideal) x1 := rfl

/-- The second aggregated map is the aggregation of `x · W_het`. -/
theorem v91_eq (x0 : (⟨S100000x256, .f32⟩ : BufTy).Contents (Elt Ideal)) (x1 : (⟨S2x1600000, .i32⟩ : BufTy).Contents (Elt Ideal)) (x5 : (⟨S256x128, .f32⟩ : BufTy).Contents (Elt Ideal)) :
    val_main_v91 (F := Ideal) x0 x1 x5 = agg (val_main_v48 (F := Ideal) x0 x5) x1 := by
  unfold val_main_v91 val_main_v88 val_main_v85 agg
  rw [v89_eq, v90_eq, v84_eq, v87_eq]

/-- What the reference does with the two aggregated maps `A` and `B`. -/
def tail (A B : FVec Ideal S100000x128 .f32) (x4 x6 : FVec Ideal S128 .f32) (x7 : FVec Ideal S128x64 .f32) (x8 : FVec Ideal S64 .f32)
    (x9 : FVec Ideal S64x2 .f32) (x10 : FVec Ideal S2 .f32) : FVec Ideal S100000x2 .f32 :=
  addf (F := Ideal) (Host.dotGeneral (F := Ideal) dot_S100000x64_S64x2_S100000x2_1_0_0_1_n_n none
      (maximumf (F := Ideal) (addf (F := Ideal) (Host.dotGeneral (F := Ideal) dot_S100000x128_S128x64_S100000x64_1_0_0_1_n_n none
            (addf (F := Ideal)
              (mulf (F := Ideal) (val_main_v96 (F := Ideal) : FVec Ideal S100000x128 .f32)
                (maximumf (F := Ideal) (addf (F := Ideal) A (val_main_v45 (F := Ideal) x4 : FVec Ideal S100000x128 .f32)) (val_main_call1_v0 (F := Ideal) : FVec Ideal S100000x128 .f32)))
              (mulf (F := Ideal) (val_main_v98 (F := Ideal) : FVec Ideal S100000x128 .f32)
                (maximumf (F := Ideal) (addf (F := Ideal) B (val_main_v93 (F := Ideal) x6 : FVec Ideal S100000x128 .f32)) (val_main_call3_v0 (F := Ideal) : FVec Ideal S100000x128 .f32))))
            x7) (val_main_v103 (F := Ideal) x8 : FVec Ideal S100000x64 .f32)) (val_main_call4_v0 (F := Ideal) : FVec Ideal S100000x64 .f32)) x9)
    (val_main_v108 (F := Ideal) x10 : FVec Ideal S100000x2 .f32)
/-- The reference's result is `tail` of its two aggregated maps. -/
theorem v109_eq (x0 : (⟨S100000x256, .f32⟩ : BufTy).Contents (Elt Ideal)) (x1 : (⟨S2x1600000, .i32⟩ : BufTy).Contents (Elt Ideal)) (x3 : (⟨S256x128, .f32⟩ : BufTy).Contents (Elt Ideal)) (x4 : (⟨S128, .f32⟩ : BufTy).Contents (Elt Ideal))
    (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) :
    val_main_v109 (F := Ideal) x0 x1 x3 x4 x5 x6 x7 x8 x9 x10
      = tail (val_main_v43 (F := Ideal) x0 x1 x3) (val_main_v91 (F := Ideal) x0 x1 x5) x4 x6 x7 x8 x9 x10 := rfl

/-! ## The broadcast biases and constants at an index -/

theorem bias45 (x4 : (⟨S128, .f32⟩ : BufTy).Contents (Elt Ideal)) (r : Fin 100000) (k : Fin 128) : val_main_v45 (F := Ideal) x4 (ix2 r k) = x4 (ix1 k) := by
  rw [val_main_v45_apply, val_main_v44_apply]
  refine congrArg x4 ?_
  funext a; match a with | ⟨0, _⟩ => rfl
theorem bias93 (x6 : (⟨S128, .f32⟩ : BufTy).Contents (Elt Ideal)) (r : Fin 100000) (k : Fin 128) : val_main_v93 (F := Ideal) x6 (ix2 r k) = x6 (ix1 k) := by
  rw [val_main_v93_apply, val_main_v92_apply]
  refine congrArg x6 ?_
  funext a; match a with | ⟨0, _⟩ => rfl
theorem bias103 (x8 : (⟨S64, .f32⟩ : BufTy).Contents (Elt Ideal)) (r : Fin 100000) (j : Fin 64) : val_main_v103 (F := Ideal) x8 (ix2 r j) = x8 (ix1 j) := by
  rw [val_main_v103_apply, val_main_v102_apply]
  refine congrArg x8 ?_
  funext a; match a with | ⟨0, _⟩ => rfl
theorem bias108 (x10 : (⟨S2, .f32⟩ : BufTy).Contents (Elt Ideal)) (r : Fin 100000) (q : Fin 2) : val_main_v108 (F := Ideal) x10 (ix2 r q) = x10 (ix1 q) := by
  rw [val_main_v108_apply, val_main_v107_apply]
  refine congrArg x10 ?_
  funext a; match a with | ⟨0, _⟩ => rfl
theorem c96 (i : S100000x128.Idx) : val_main_v96 (F := Ideal) i = half := by
  rw [val_main_v96_apply, val_main_cst_20_apply]; rfl
theorem c98 (i : S100000x128.Idx) : val_main_v98 (F := Ideal) i = half := by
  rw [val_main_v98_apply, val_main_cst_21_apply]; rfl
theorem z1 (i : S100000x128.Idx) : val_main_call1_v0 (F := Ideal) i = zero := by
  rw [val_main_call1_v0_apply, val_main_call1_cst_apply]; rfl
theorem z3 (i : S100000x128.Idx) : val_main_call3_v0 (F := Ideal) i = zero := by
  rw [val_main_call3_v0_apply, val_main_call3_cst_apply]; rfl
theorem z4 (i : S100000x64.Idx) : val_main_call4_v0 (F := Ideal) i = zero := by
  rw [val_main_call4_v0_apply, val_main_call4_cst_apply]; rfl

/-! ## The tail at an index -/

/-- THE REFERENCE'S TAIL at node `r`, class `q`, is the specification's logit. -/
theorem tail_apply (A B : FVec Ideal S100000x128 .f32) (x4 x6 : FVec Ideal S128 .f32) (x7 : FVec Ideal S128x64 .f32) (x8 : FVec Ideal S64 .f32)
    (x9 : FVec Ideal S64x2 .f32) (x10 : FVec Ideal S2 .f32) (r : Fin 100000) (q : Fin 2) :
    tail A B x4 x6 x7 x8 x9 x10 (ix2 r q)
      = logitAt (M := 100000) A B (fun k => x4 (ix1 k)) (fun k => x6 (ix1 k)) x7 (fun j => x8 (ix1 j)) x9 (fun q => x10 (ix1 q)) r q := by
  unfold tail logitAt
  refine congrArg₂ (· + ·) ?_ (bias108 x10 r q)
  refine (Cert.Lib.plain_dotGeneral_apply 100000 64 2 none _ _ r q).trans ?_
  refine Finset.sum_congr rfl fun j _ => ?_
  refine congrArg₂ (· * ·) ?_ rfl
  unfold hiddenAt
  refine congrArg₂ max (congrArg₂ (· + ·) ?_ (bias103 x8 r j)) (z4 _)
  refine (Cert.Lib.plain_dotGeneral_apply 100000 128 64 none _ _ r j).trans ?_
  refine Finset.sum_congr rfl fun k _ => ?_
  refine congrArg₂ (· * ·) ?_ rfl
  unfold fusedAt
  exact congrArg₂ (· + ·) (congrArg₂ (· * ·) (c96 _) (congrArg₂ max (congrArg₂ (· + ·) rfl (bias45 x4 r k)) (z1 _)))
    (congrArg₂ (· * ·) (c98 _) (congrArg₂ max (congrArg₂ (· + ·) rfl (bias93 x6 r k)) (z3 _)))

/-- The reference's tail, as an array, is the specification's logits. -/
theorem tail_eq (A B : FVec Ideal S100000x128 .f32) (x4 x6 : FVec Ideal S128 .f32) (x7 : FVec Ideal S128x64 .f32) (x8 : FVec Ideal S64 .f32)
    (x9 : FVec Ideal S64x2 .f32) (x10 : FVec Ideal S2 .f32) :
    tail A B x4 x6 x7 x8 x9 x10
      = logits (M := 100000) A B (fun k => x4 (ix1 k)) (fun k => x6 (ix1 k)) x7 (fun j => x8 (ix1 j)) x9 (fun q => x10 (ix1 q)) := by
  funext i
  obtain ⟨r, q, rfl⟩ : ∃ (r : Fin 100000) (q : Fin 2), i = ix2 r q := ⟨i 0, i 1, eq_ix2 i⟩
  exact tail_apply A B x4 x6 x7 x8 x9 x10 r q

/-- The reference's product of the features with a weight matrix is the specification's product. -/
theorem v0_eq (x0 : (⟨S100000x256, .f32⟩ : BufTy).Contents (Elt Ideal)) (x3 : (⟨S256x128, .f32⟩ : BufTy).Contents (Elt Ideal)) :
    val_main_v0 (F := Ideal) x0 x3 = Cert.Spec.prod (M := 100000) (K := 256) (N := 128) x0 x3 := by
  funext i
  obtain ⟨r, j, rfl⟩ : ∃ (r : Fin 100000) (j : Fin 128), i = ix2 r j := ⟨i 0, i 1, eq_ix2 i⟩
  unfold val_main_v0
  exact Cert.Lib.plain_dotGeneral_apply 100000 256 128 none x0 x3 r j
theorem v48_eq (x0 : (⟨S100000x256, .f32⟩ : BufTy).Contents (Elt Ideal)) (x5 : (⟨S256x128, .f32⟩ : BufTy).Contents (Elt Ideal)) :
    val_main_v48 (F := Ideal) x0 x5 = Cert.Spec.prod (M := 100000) (K := 256) (N := 128) x0 x5 := by
  funext i
  obtain ⟨r, j, rfl⟩ : ∃ (r : Fin 100000) (j : Fin 128), i = ix2 r j := ⟨i 0, i 1, eq_ix2 i⟩
  unfold val_main_v48
  exact Cert.Lib.plain_dotGeneral_apply 100000 256 128 none x0 x5 r j

/-- THE REFERENCE'S RESULT: the specification's logits of the aggregations of the two products. -/
theorem result_eq (x0 : (⟨S100000x256, .f32⟩ : BufTy).Contents (Elt Ideal)) (x1 : (⟨S2x1600000, .i32⟩ : BufTy).Contents (Elt Ideal)) (x3 : (⟨S256x128, .f32⟩ : BufTy).Contents (Elt Ideal)) (x4 : (⟨S128, .f32⟩ : BufTy).Contents (Elt Ideal))
    (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) :
    val_main_v109 (F := Ideal) x0 x1 x3 x4 x5 x6 x7 x8 x9 x10
      = logits (M := 100000) (agg (Cert.Spec.prod (M := 100000) (K := 256) (N := 128) x0 x3) x1)
          (agg (Cert.Spec.prod (M := 100000) (K := 256) (N := 128) x0 x5) x1)
          (fun k => x4 (ix1 k)) (fun k => x6 (ix1 k)) x7 (fun j => x8 (ix1 j)) x9 (fun q => x10 (ix1 q)) := by
  rw [v109_eq, v43_eq, v91_eq, v0_eq, v48_eq]
  exact tail_eq _ _ x4 x6 x7 x8 x9 x10

end Cert.ReferenceIdeal.Hand

end
-- ==== Proof.Region0.lean ====
/-
  The first region: the node features times the joined weight matrix.

  Its grid has twenty points; point `t` reads rows `5000·t … 5000·t + 4999` of the features and the whole joined
  weight matrix, and writes back rows `5000·t … 5000·t + 4999` of the result. At the ideal values the body's
  matrix product into a zero accumulator is, entry by entry, the sum over the 256 columns; the changes of float
  format are the identity. So what point `t` writes back is block `t` of ONE whole-array function of the two
  operands, `(r, j) ↦ Σ_k x(r,k) · w(k,j)`, the twenty row blocks tile the array, and the array ends at that function.
-/
import proofs.«128187_j1855425872278_1_alg».proof.Proof.Gen.KernelIdeal.Frame
import proofs.«128187_j1855425872278_1_alg».proof.Proof.Spec
import proofs.«128187_j1855425872278_1_alg».proof.Proof.LibPlainDot
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (hz2)

/-- The body's payload at row `p`, column `q` of the block: the sum over the 256 columns of the loaded feature
    block's row times the loaded weights' column. -/
theorem pay0_apply (x0 : Vec Ideal S5000x256 .f32) (x1 : Vec Ideal S256x256 .f32) (p : Fin 5000) (q : Fin 256) :
    k0_pay1 x0 x1 (ix2 p q) = ∑ k : Fin 256, x0 (ix2 p k) * x1 (ix2 k q) := by
  unfold k0_pay1
  try dsimp only
  rw [shapeCast_self]
  exact Cert.Lib.plain_matmul_zero_apply 5000 256 256 none _ _ p q

section Region

variable (V : (c : Dev nD) → (b : Ref sig .tc) → Buf (Elt Ideal) ((c : Thread nD τ).loc b))

/-- The printed index maps over the grid: the feature and result windows sit at block row `t`, column block 0;
    the weight window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t`, at local `y`, is the feature array at row `5000·t + y₀`, column `y₁`. -/
theorem iblk0_0_apply (c : Dev nD) (t : Fin cfg0.N) (y : S5000x256.Idx) (K : S100000x256.Idx)
    (h0 : (K 0).val = 5000 * t.val + (y 0).val) (h1 : (K 1).val = (y 1).val) :
    (iblk0 V c 0 t : Vec Ideal S5000x256 .f32) y = (V c main_arg0 : S100000x256.Idx → Elt Ideal .f32) K := by
  obtain ⟨e0, e1, -⟩ := idx0 t
  unfold iblk0
  rw [View.read_apply]
  show (V c main_arg0 : S100000x256.Idx → Elt Ideal .f32) _ = _
  refine congrArg (V c main_arg0 : S100000x256.Idx → Elt Ideal .f32) ?_
  funext a
  apply Fin.ext
  match a with
  | ⟨0, _⟩ => show win0_0.index t (0 : Fin 2) * 5000 + 1 * (y 0).val = (K 0).val; rw [e0, h0]; omega
  | ⟨1, _⟩ => show win0_0.index t (1 : Fin 2) * 256 + 1 * (y 1).val = (K 1).val; rw [e1, h1]; omega

/-- The weight window's block at any point is the whole joined weight matrix. -/
theorem iblk0_1_apply (c : Dev nD) (t : Fin cfg0.N) (y : S256x256.Idx) :
    (iblk0 V c 1 t : Vec Ideal S256x256 .f32) y = (V c main_v0 : S256x256.Idx → Elt Ideal .f32) y := by
  obtain ⟨-, -, e2, e3, -⟩ := idx0 t
  unfold iblk0
  rw [View.read_apply]
  show (V c main_v0 : S256x256.Idx → Elt Ideal .f32) _ = _
  refine congrArg (V c main_v0 : S256x256.Idx → Elt Ideal .f32) ?_
  funext a
  apply Fin.ext
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

/-- WHAT POINT `t` WRITES BACK is block `t` of the product of the feature array with the joined weights. -/
theorem flushed0 (c : Dev nD) (t : Fin cfg0.N) :
    (dat0 V c).flushed 2 t = ((cfg0.win 2).blk t).view.read (Elt Ideal)
      (Cert.Spec.prod (V c main_arg0 : S100000x256.Idx → Elt Ideal .f32) (V c main_v0 : S256x256.Idx → Elt Ideal .f32)) := by
  show (cfg0.win 2).cut (grid0.coords t) ((dat0 V c).after 2 t) = _
  rw [after0_2]
  unfold out0_2
  rw [View.canon_unit_zero hz2]
  simp only [View.ld_unit_zero (S := S5000x256) hz2, View.ld_unit_zero (S := S256x256) hz2]
  obtain ⟨e0, e1, e2, e3, e4, e5⟩ := idx0 t
  funext y
  obtain ⟨p, q, rfl⟩ : ∃ (p : Fin 5000) (q : Fin 256), y = ix2 p q := ⟨y 0, y 1, eq_ix2 y⟩
  show k0_pay1 (iblk0 V c 0 t) (iblk0 V c 1 t) (ix2 p q)
    = Cert.Spec.prod (V c main_arg0 : S100000x256.Idx → Elt Ideal .f32) (V c main_v0 : S256x256.Idx → Elt Ideal .f32)
        (((cfg0.win 2).blk t).view.emb (ix2 p q))
  refine (pay0_apply _ _ p q).trans ?_
  simp only [Cert.Spec.prod, Cert.Spec.dotAt]
  have hK0 : ((((cfg0.win 2).blk t).view.emb (ix2 p q)) 0).val = 5000 * t.val + p.val := by
    show win0_2.index t (0 : Fin 2) * 5000 + 1 * p.val = _; rw [e4]; omega
  have hK1 : ((((cfg0.win 2).blk t).view.emb (ix2 p q)) 1).val = q.val := by
    show win0_2.index t (1 : Fin 2) * 256 + 1 * q.val = _; rw [e5]; omega
  refine Finset.sum_congr rfl fun k _ => ?_
  refine congrArg₂ (· * ·) ?_ ?_
  · exact iblk0_0_apply V c t (ix2 p k) (ix2 _ k) hK0 rfl
  · refine (iblk0_1_apply V c t (ix2 k q)).trans ?_
    refine congrArg (V c main_v0 : S256x256.Idx → Elt Ideal .f32) ?_
    funext a
    apply Fin.ext
    match a with
    | ⟨0, _⟩ => rfl
    | ⟨1, _⟩ => exact hK1.symm

/-- An index of the result array is in point `t`'s block iff each coordinate is in the block's range. -/
theorem mem_blk0_2 (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v1).slice (win0_2.rect t)).set ↔ _
  rw [View.set_slice_whole, Rect.mem_set_unit]
  exact Iff.rfl

/-- Every index of the result array is in the block of the point that owns its row: point `row / 5000`. -/
theorem cover0 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 20 := N_0
  refine ⟨⟨(i 0).val / 5000, by rw [hN]; omega⟩, flush0_2 _, ?_⟩
  rw [mem_blk0_2]
  obtain ⟨-, -, -, -, e4, e5⟩ := idx0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 256 ≤ (i 1).val ∧ (i 1).val < win0_2.index _ (1 : Fin 2) * 256 + 256
    rw [e5]; omega

/-- THE RESULT ARRAY of the first region: the feature array times the joined weights, entry by entry. -/
theorem final0 (c : Dev nD) :
    (dat0 V c).arrAt 2 cfg0.N
      = Cert.Spec.prod (V c main_arg0 : S100000x256.Idx → Elt Ideal .f32) (V c main_v0 : S256x256.Idx → Elt Ideal .f32) :=
  (dat0 V c).arrAt_eq_of_cover 2 _ (fun t _ => flushed0 V c t) cover0

end Region

end Cert.KernelIdeal.Hand

end
-- ==== Proof.Region1.lean ====
/-
  The second region: the classifier.

  Its grid has twenty points; point `t` reads rows `5000·t … 5000·t + 4999` of the two aggregated maps and the whole
  of the two bias rows, the fusion weights and bias, and the output weights and bias, and writes back rows
  `5000·t … 5000·t + 4999` of the logits. At the ideal values the body computes, for its rows, exactly the
  specification's formula (the changes of float format are the identity, each matrix product into a zero
  accumulator is the sum over the contracted column). A row's logits depend on the maps only through that row, so
  what point `t` writes back is block `t` of the specification's whole array; the twenty row blocks tile the array.
-/
import proofs.«128187_j1855425872278_1_alg».proof.Proof.Gen.KernelIdeal.Frame
import proofs.«128187_j1855425872278_1_alg».proof.Proof.Spec
import proofs.«128187_j1855425872278_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (logitAt hiddenAt fusedAt logits hz2)

/-- The logits array read at an index is the logit of the index's row and class. -/
theorem logitAt_eq_logits {M : Nat} (A B : Cert.Spec.Mat M 128) (b4 b6 : Fin 128 → EReal) (Wf : Cert.Spec.Mat 128 64)
    (b8 : Fin 64 → EReal) (Wc : Cert.Spec.Mat 64 2) (b10 : Fin 2 → EReal) (E : (⟨2, ![M, 2]⟩ : Shape).Idx) (q : Fin 2)
    (hq : (E 1 : Fin 2) = q) :
    logitAt A B b4 b6 Wf b8 Wc b10 (E 0) q = logits A B b4 b6 Wf b8 Wc b10 E := by
  subst hq; rfl

/-- The last step of the body: the output bias row added to every row. -/
theorem pay1_outer (A : FVec Ideal S5000x2 .f32) (v35 : Vec Ideal S1x2 .f32) (p : Fin 5000) (q : Fin 2) :
    k1_pay1 A v35 (ix2 p q) = A (ix2 p q) + v35 (ix2 (0 : Fin 1) q) := by
  unfold k1_pay1
  try dsimp only
  rw [shapeCast_self]
  exact congrArg (A (ix2 p q) + ·) (broadcastTo_1b_ab_apply v35 _ p q)

/-- The fused features the body forms, at row `p`, column `k` of the block. -/
theorem fused_blk (v0 v8 : Vec Ideal S5000x128 .f32) (v2 v10 : Vec Ideal S1x128 .f32) (p : Fin 5000) (k : Fin 128) :
    addf (mulf (broadcast S5000x128 (Scalar.ofBits (F := Ideal) .f32 0x3F000000#32))
          (maximumf (addf (shapeCast S5000x128 v0 shapeCasts_S5000x128_S5000x128)
              (broadcastTo S5000x128 (shapeCast S1x128 v2 shapeCasts_S1x128_S1x128) broadcasts_S1x128_S5000x128))
            (broadcast S5000x128 (Scalar.ofBits (F := Ideal) .f32 0x00000000#32))))
        (mulf (broadcast S5000x128 (Scalar.ofBits (F := Ideal) .f32 0x3F000000#32))
          (maximumf (addf (shapeCast S5000x128 v8 shapeCasts_S5000x128_S5000x128)
              (broadcastTo S5000x128 (shapeCast S1x128 v10 shapeCasts_S1x128_S1x128) broadcasts_S1x128_S5000x128))
            (broadcast S5000x128 (Scalar.ofBits (F := Ideal) .f32 0x00000000#32)))) (ix2 p k)
      = fusedAt (M := 5000) v0 v8 (fun k => v2 (ix2 (0 : Fin 1) k)) (fun k => v10 (ix2 (0 : Fin 1) k)) p k := by
  rw [shapeCast_self, shapeCast_self, shapeCast_self, shapeCast_self]
  unfold fusedAt
  refine congrArg₂ (· + ·) (congrArg₂ (· * ·) rfl (congrArg₂ max (congrArg₂ (· + ·) rfl ?_) rfl))
    (congrArg₂ (· * ·) rfl (congrArg₂ max (congrArg₂ (· + ·) rfl ?_) rfl))
  · exact broadcastTo_1b_ab_apply v2 _ p k
  · exact broadcastTo_1b_ab_apply v10 _ p k

/-- THE BODY'S PAYLOAD at row `p`, class `q` of the block is the specification's logit of that row, over the loaded
    blocks. -/
theorem pay1_apply (v0 v8 : Vec Ideal S5000x128 .f32) (v2 v10 : Vec Ideal S1x128 .f32) (v22 : Vec Ideal S128x64 .f32)
    (v25 : Vec Ideal S1x64 .f32) (v32 : Vec Ideal S64x2 .f32) (v35 : Vec Ideal S1x2 .f32) (p : Fin 5000) (q : Fin 2) :
    k1_pay1 (k1_pay2 v0 v2 v8 v10 v22 v25 v32) v35 (ix2 p q)
      = logitAt (M := 5000) v0 v8 (fun k => v2 (ix2 (0 : Fin 1) k)) (fun k => v10 (ix2 (0 : Fin 1) k)) v22 (fun j => v25 (ix2 (0 : Fin 1) j)) v32 (fun q => v35 (ix2 (0 : Fin 1) q)) p q := by
  refine (pay1_outer _ v35 p q).trans ?_
  unfold logitAt
  refine congrArg (· + v35 (ix2 (0 : Fin 1) q)) ?_
  unfold k1_pay2
  try dsimp only
  refine (Cert.Lib.plain_matmul_zero_apply 5000 64 2 none _ _ p q).trans ?_
  refine Finset.sum_congr rfl fun j _ => ?_
  refine congrArg₂ (· * ·) ?_ rfl
  unfold hiddenAt
  refine congrArg₂ max (congrArg₂ (· + ·) ?_ ?_) rfl
  · refine (Cert.Lib.plain_matmul_zero_apply 5000 128 64 none _ _ p j).trans ?_
    refine Finset.sum_congr rfl fun k _ => ?_
    refine congrArg₂ (· * ·) ?_ rfl
    exact fused_blk v0 v8 v2 v10 p k
  · rw [shapeCast_self]
    exact broadcastTo_1b_ab_apply v25 _ p j

section Region

variable (V : (c : Dev nD) → (b : Ref sig .tc) → Buf (Elt Ideal) ((c : Thread nD τ).loc b))

/-- The printed index maps over the grid: the two map windows and the result window sit at block row `t`, column
    block 0; every other window at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Window 0's block at point `t`, at local `y`, is its array at row `5000·t + y₀`, column `y₁`. -/
theorem iblk1_0_apply (c : Dev nD) (t : Fin cfg1.N) (y : S5000x128.Idx) (K : S100000x128.Idx)
    (h0 : (K 0).val = 5000 * t.val + (y 0).val) (h1 : (K 1).val = (y 1).val) :
    (iblk1 V c 0 t : Vec Ideal S5000x128 .f32) y = (V c main_v56 : S100000x128.Idx → Elt Ideal .f32) K := by
  obtain ⟨a00, a01, a10, a11, f20, f21, f30, f31, f40, f41, f50, f51, f60, f61, f70, f71, o0, o1⟩ := idx1 t
  unfold iblk1
  rw [View.read_apply]
  show (V c main_v56 : S100000x128.Idx → Elt Ideal .f32) _ = _
  refine congrArg (V c main_v56 : S100000x128.Idx → Elt Ideal .f32) ?_
  funext a
  apply Fin.ext
  match a with
  | ⟨0, _⟩ => show win1_0.index t (0 : Fin 2) * 5000 + 1 * (y 0).val = (K 0).val; rw [a00, h0]; omega
  | ⟨1, _⟩ => show win1_0.index t (1 : Fin 2) * 128 + 1 * (y 1).val = (K 1).val; rw [a01, h1]; omega

/-- Window 1's block at point `t`, at local `y`, is its array at row `5000·t + y₀`, column `y₁`. -/
theorem iblk1_1_apply (c : Dev nD) (t : Fin cfg1.N) (y : S5000x128.Idx) (K : S100000x128.Idx)
    (h0 : (K 0).val = 5000 * t.val + (y 0).val) (h1 : (K 1).val = (y 1).val) :
    (iblk1 V c 1 t : Vec Ideal S5000x128 .f32) y = (V c main_v59 : S100000x128.Idx → Elt Ideal .f32) K := by
  obtain ⟨a00, a01, a10, a11, f20, f21, f30, f31, f40, f41, f50, f51, f60, f61, f70, f71, o0, o1⟩ := idx1 t
  unfold iblk1
  rw [View.read_apply]
  show (V c main_v59 : S100000x128.Idx → Elt Ideal .f32) _ = _
  refine congrArg (V c main_v59 : S100000x128.Idx → Elt Ideal .f32) ?_
  funext a
  apply Fin.ext
  match a with
  | ⟨0, _⟩ => show win1_1.index t (0 : Fin 2) * 5000 + 1 * (y 0).val = (K 0).val; rw [a10, h0]; omega
  | ⟨1, _⟩ => show win1_1.index t (1 : Fin 2) * 128 + 1 * (y 1).val = (K 1).val; rw [a11, h1]; omega

/-- Window 2's block at any point is its whole array. -/
theorem iblk1_2_eq (c : Dev nD) (t : Fin cfg1.N) :
    (iblk1 V c 2 t : Vec Ideal S1x128 .f32) = (V c main_v60 : S1x128.Idx → Elt Ideal .f32) := by
  obtain ⟨a00, a01, a10, a11, f20, f21, f30, f31, f40, f41, f50, f51, f60, f61, f70, f71, o0, o1⟩ := idx1 t
  funext y
  unfold iblk1
  rw [View.read_apply]
  show (V c main_v60 : S1x128.Idx → Elt Ideal .f32) _ = _
  refine congrArg (V c main_v60 : S1x128.Idx → Elt Ideal .f32) ?_
  funext a
  apply Fin.ext
  match a with
  | ⟨0, _⟩ => show win1_2.index t (0 : Fin 2) * 1 + 1 * (y 0).val = (y 0).val; rw [f20]; omega
  | ⟨1, _⟩ => show win1_2.index t (1 : Fin 2) * 128 + 1 * (y 1).val = (y 1).val; rw [f21]; omega

/-- Window 3's block at any point is its whole array. -/
theorem iblk1_3_eq (c : Dev nD) (t : Fin cfg1.N) :
    (iblk1 V c 3 t : Vec Ideal S1x128 .f32) = (V c main_v61 : S1x128.Idx → Elt Ideal .f32) := by
  obtain ⟨a00, a01, a10, a11, f20, f21, f30, f31, f40, f41, f50, f51, f60, f61, f70, f71, o0, o1⟩ := idx1 t
  funext y
  unfold iblk1
  rw [View.read_apply]
  show (V c main_v61 : S1x128.Idx → Elt Ideal .f32) _ = _
  refine congrArg (V c main_v61 : S1x128.Idx → Elt Ideal .f32) ?_
  funext a
  apply Fin.ext
  match a with
  | ⟨0, _⟩ => show win1_3.index t (0 : Fin 2) * 1 + 1 * (y 0).val = (y 0).val; rw [f30]; omega
  | ⟨1, _⟩ => show win1_3.index t (1 : Fin 2) * 128 + 1 * (y 1).val = (y 1).val; rw [f31]; omega

/-- Window 4's block at any point is its whole array. -/
theorem iblk1_4_eq (c : Dev nD) (t : Fin cfg1.N) :
    (iblk1 V c 4 t : Vec Ideal S128x64 .f32) = (V c main_arg7 : S128x64.Idx → Elt Ideal .f32) := by
  obtain ⟨a00, a01, a10, a11, f20, f21, f30, f31, f40, f41, f50, f51, f60, f61, f70, f71, o0, o1⟩ := idx1 t
  funext y
  unfold iblk1
  rw [View.read_apply]
  show (V c main_arg7 : S128x64.Idx → Elt Ideal .f32) _ = _
  refine congrArg (V c main_arg7 : S128x64.Idx → Elt Ideal .f32) ?_
  funext a
  apply Fin.ext
  match a with
  | ⟨0, _⟩ => show win1_4.index t (0 : Fin 2) * 128 + 1 * (y 0).val = (y 0).val; rw [f40]; omega
  | ⟨1, _⟩ => show win1_4.index t (1 : Fin 2) * 64 + 1 * (y 1).val = (y 1).val; rw [f41]; omega

/-- Window 5's block at any point is its whole array. -/
theorem iblk1_5_eq (c : Dev nD) (t : Fin cfg1.N) :
    (iblk1 V c 5 t : Vec Ideal S1x64 .f32) = (V c main_v62 : S1x64.Idx → Elt Ideal .f32) := by
  obtain ⟨a00, a01, a10, a11, f20, f21, f30, f31, f40, f41, f50, f51, f60, f61, f70, f71, o0, o1⟩ := idx1 t
  funext y
  unfold iblk1
  rw [View.read_apply]
  show (V c main_v62 : S1x64.Idx → Elt Ideal .f32) _ = _
  refine congrArg (V c main_v62 : S1x64.Idx → Elt Ideal .f32) ?_
  funext a
  apply Fin.ext
  match a with
  | ⟨0, _⟩ => show win1_5.index t (0 : Fin 2) * 1 + 1 * (y 0).val = (y 0).val; rw [f50]; omega
  | ⟨1, _⟩ => show win1_5.index t (1 : Fin 2) * 64 + 1 * (y 1).val = (y 1).val; rw [f51]; omega

/-- Window 6's block at any point is its whole array. -/
theorem iblk1_6_eq (c : Dev nD) (t : Fin cfg1.N) :
    (iblk1 V c 6 t : Vec Ideal S64x2 .f32) = (V c main_arg9 : S64x2.Idx → Elt Ideal .f32) := by
  obtain ⟨a00, a01, a10, a11, f20, f21, f30, f31, f40, f41, f50, f51, f60, f61, f70, f71, o0, o1⟩ := idx1 t
  funext y
  unfold iblk1
  rw [View.read_apply]
  show (V c main_arg9 : S64x2.Idx → Elt Ideal .f32) _ = _
  refine congrArg (V c main_arg9 : S64x2.Idx → Elt Ideal .f32) ?_
  funext a
  apply Fin.ext
  match a with
  | ⟨0, _⟩ => show win1_6.index t (0 : Fin 2) * 64 + 1 * (y 0).val = (y 0).val; rw [f60]; omega
  | ⟨1, _⟩ => show win1_6.index t (1 : Fin 2) * 2 + 1 * (y 1).val = (y 1).val; rw [f61]; omega

/-- Window 7's block at any point is its whole array. -/
theorem iblk1_7_eq (c : Dev nD) (t : Fin cfg1.N) :
    (iblk1 V c 7 t : Vec Ideal S1x2 .f32) = (V c main_v63 : S1x2.Idx → Elt Ideal .f32) := by
  obtain ⟨a00, a01, a10, a11, f20, f21, f30, f31, f40, f41, f50, f51, f60, f61, f70, f71, o0, o1⟩ := idx1 t
  funext y
  unfold iblk1
  rw [View.read_apply]
  show (V c main_v63 : S1x2.Idx → Elt Ideal .f32) _ = _
  refine congrArg (V c main_v63 : S1x2.Idx → Elt Ideal .f32) ?_
  funext a
  apply Fin.ext
  match a with
  | ⟨0, _⟩ => show win1_7.index t (0 : Fin 2) * 1 + 1 * (y 0).val = (y 0).val; rw [f70]; omega
  | ⟨1, _⟩ => show win1_7.index t (1 : Fin 2) * 2 + 1 * (y 1).val = (y 1).val; rw [f71]; omega

set_option maxHeartbeats 2000000 in
/-- WHAT POINT `t` WRITES BACK is block `t` of the specification's logits over the region's operand arrays. -/
theorem flushed1 (c : Dev nD) (t : Fin cfg1.N) :
    (dat1 V c).flushed 8 t = ((cfg1.win 8).blk t).view.read (Elt Ideal)
      (logits (M := 100000) (V c main_v56 : S100000x128.Idx → Elt Ideal .f32) (V c main_v59 : S100000x128.Idx → Elt Ideal .f32)
        (fun k => (V c main_v60 : S1x128.Idx → Elt Ideal .f32) (ix2 (0 : Fin 1) k)) (fun k => (V c main_v61 : S1x128.Idx → Elt Ideal .f32) (ix2 (0 : Fin 1) k))
        (V c main_arg7 : S128x64.Idx → Elt Ideal .f32) (fun j => (V c main_v62 : S1x64.Idx → Elt Ideal .f32) (ix2 (0 : Fin 1) j))
        (V c main_arg9 : S64x2.Idx → Elt Ideal .f32) (fun q => (V c main_v63 : S1x2.Idx → Elt Ideal .f32) (ix2 (0 : Fin 1) q))) := by
  show (cfg1.win 8).cut (grid1.coords t) ((dat1 V c).after 8 t) = _
  rw [after1_8]
  unfold out1_8
  rw [View.canon_unit_zero hz2]
  simp only [View.ld_unit_zero (S := S5000x128) hz2, View.ld_unit_zero (S := S1x128) hz2, View.ld_unit_zero (S := S128x64) hz2,
    View.ld_unit_zero (S := S1x64) hz2, View.ld_unit_zero (S := S64x2) hz2, View.ld_unit_zero (S := S1x2) hz2]
  obtain ⟨a00, a01, a10, a11, f20, f21, f30, f31, f40, f41, f50, f51, f60, f61, f70, f71, o0, o1⟩ := idx1 t
  funext y
  obtain ⟨p, q, rfl⟩ : ∃ (p : Fin 5000) (q : Fin 2), y = ix2 p q := ⟨y 0, y 1, eq_ix2 y⟩
  show k1_pay1 (k1_pay2 (iblk1 V c 0 t) (iblk1 V c 2 t) (iblk1 V c 1 t) (iblk1 V c 3 t) (iblk1 V c 4 t) (iblk1 V c 5 t) (iblk1 V c 6 t)) (iblk1 V c 7 t) (ix2 p q)
    = (logits (M := 100000) (V c main_v56 : S100000x128.Idx → Elt Ideal .f32) (V c main_v59 : S100000x128.Idx → Elt Ideal .f32)
        (fun k => (V c main_v60 : S1x128.Idx → Elt Ideal .f32) (ix2 (0 : Fin 1) k)) (fun k => (V c main_v61 : S1x128.Idx → Elt Ideal .f32) (ix2 (0 : Fin 1) k))
        (V c main_arg7 : S128x64.Idx → Elt Ideal .f32) (fun j => (V c main_v62 : S1x64.Idx → Elt Ideal .f32) (ix2 (0 : Fin 1) j))
        (V c main_arg9 : S64x2.Idx → Elt Ideal .f32) (fun q => (V c main_v63 : S1x2.Idx → Elt Ideal .f32) (ix2 (0 : Fin 1) q))) (((cfg1.win 8).blk t).view.emb (ix2 p q))
  have hK0 : ((((cfg1.win 8).blk t).view.emb (ix2 p q)) 0).val = 5000 * t.val + p.val := by
    show win1_8.index t (0 : Fin 2) * 5000 + 1 * p.val = _; rw [o0]; omega
  have hK1 : ((((cfg1.win 8).blk t).view.emb (ix2 p q)) 1).val = q.val := by
    show win1_8.index t (1 : Fin 2) * 2 + 1 * q.val = _; rw [o1]; omega
  have hq : ((((cfg1.win 8).blk t).view.emb (ix2 p q)) 1 : Fin 2) = q := Fin.ext hK1
  refine (pay1_apply (iblk1 V c 0 t) (iblk1 V c 1 t) (iblk1 V c 2 t) (iblk1 V c 3 t) (iblk1 V c 4 t) (iblk1 V c 5 t) (iblk1 V c 6 t) (iblk1 V c 7 t) p q).trans ?_
  refine (Cert.Spec.logitAt_congr (M := 5000) (M' := 100000) (iblk1 V c 0 t) (iblk1 V c 1 t)
    (V c main_v56 : S100000x128.Idx → Elt Ideal .f32) (V c main_v59 : S100000x128.Idx → Elt Ideal .f32)
    (fun k => (iblk1 V c 2 t) (ix2 (0 : Fin 1) k)) (fun k => (iblk1 V c 3 t) (ix2 (0 : Fin 1) k)) (iblk1 V c 4 t)
    (fun j => (iblk1 V c 5 t) (ix2 (0 : Fin 1) j)) (iblk1 V c 6 t) (fun q => (iblk1 V c 7 t) (ix2 (0 : Fin 1) q)) p ((((cfg1.win 8).blk t).view.emb (ix2 p q)) 0) q
    (fun k => iblk1_0_apply V c t (ix2 p k) (ix2 ((((cfg1.win 8).blk t).view.emb (ix2 p q)) 0) k) hK0 rfl)
    (fun k => iblk1_1_apply V c t (ix2 p k) (ix2 ((((cfg1.win 8).blk t).view.emb (ix2 p q)) 0) k) hK0 rfl)).trans ?_
  rw [iblk1_2_eq V c t, iblk1_3_eq V c t, iblk1_4_eq V c t, iblk1_5_eq V c t, iblk1_6_eq V c t, iblk1_7_eq V c t]
  exact logitAt_eq_logits (M := 100000) (V c main_v56 : S100000x128.Idx → Elt Ideal .f32) (V c main_v59 : S100000x128.Idx → Elt Ideal .f32)
    (fun k => (V c main_v60 : S1x128.Idx → Elt Ideal .f32) (ix2 (0 : Fin 1) k)) (fun k => (V c main_v61 : S1x128.Idx → Elt Ideal .f32) (ix2 (0 : Fin 1) k)) (V c main_arg7 : S128x64.Idx → Elt Ideal .f32) (fun j => (V c main_v62 : S1x64.Idx → Elt Ideal .f32) (ix2 (0 : Fin 1) j)) (V c main_arg9 : S64x2.Idx → Elt Ideal .f32) (fun q => (V c main_v63 : S1x2.Idx → Elt Ideal .f32) (ix2 (0 : Fin 1) q))
    (((cfg1.win 8).blk t).view.emb (ix2 p q)) q hq

/-- An index of the logits array is in point `t`'s block iff each coordinate is in the block's range. -/
theorem mem_blk1_8 (t : Fin cfg1.N) (i : S100000x2.Idx) :
    i ∈ ((cfg1.win 8).blk t).view.set ↔ ∀ a : Fin 2, win1_8.index t a * S5000x2.size a ≤ (i a).val
      ∧ (i a).val < win1_8.index t a * S5000x2.size a + S5000x2.size a := by
  show i ∈ ((View.whole main_v64).slice (win1_8.rect t)).set ↔ _
  rw [View.set_slice_whole, Rect.mem_set_unit]
  exact Iff.rfl

/-- Every index of the logits array is in the block of the point that owns its row: point `row / 5000`. -/
theorem cover1 (i : S100000x2.Idx) :
    ∃ t : Fin cfg1.N, (cfg1.win 8).flush t = true ∧ i ∈ ((cfg1.win 8).blk t).view.set := by
  have hi0 : (i 0).val < 100000 := (i 0).isLt
  have hi1 : (i 1).val < 2 := (i 1).isLt
  have hN : cfg1.N = 20 := N_1
  refine ⟨⟨(i 0).val / 5000, by rw [hN]; omega⟩, flush1_8 _, ?_⟩
  rw [mem_blk1_8]
  obtain ⟨a00, a01, a10, a11, f20, f21, f30, f31, f40, f41, f50, f51, f60, f61, f70, f71, o0, o1⟩ := idx1 ⟨(i 0).val / 5000, by rw [hN]; omega⟩
  intro a
  match a with
  | ⟨0, _⟩ =>
    show win1_8.index _ (0 : Fin 2) * 5000 ≤ (i 0).val ∧ (i 0).val < win1_8.index _ (0 : Fin 2) * 5000 + 5000
    rw [o0]; show (i 0).val / 5000 * 5000 ≤ (i 0).val ∧ (i 0).val < (i 0).val / 5000 * 5000 + 5000; omega
  | ⟨1, _⟩ =>
    show win1_8.index _ (1 : Fin 2) * 2 ≤ (i 1).val ∧ (i 1).val < win1_8.index _ (1 : Fin 2) * 2 + 2
    rw [o1]; omega

/-- THE RESULT ARRAY of the second region: the specification's logits over the region's operand arrays. -/
theorem final1 (c : Dev nD) :
    (dat1 V c).arrAt 8 cfg1.N
      = logits (M := 100000) (V c main_v56 : S100000x128.Idx → Elt Ideal .f32) (V c main_v59 : S100000x128.Idx → Elt Ideal .f32)
        (fun k => (V c main_v60 : S1x128.Idx → Elt Ideal .f32) (ix2 (0 : Fin 1) k)) (fun k => (V c main_v61 : S1x128.Idx → Elt Ideal .f32) (ix2 (0 : Fin 1) k))
        (V c main_arg7 : S128x64.Idx → Elt Ideal .f32) (fun j => (V c main_v62 : S1x64.Idx → Elt Ideal .f32) (ix2 (0 : Fin 1) j))
        (V c main_arg9 : S64x2.Idx → Elt Ideal .f32) (fun q => (V c main_v63 : S1x2.Idx → Elt Ideal .f32) (ix2 (0 : Fin 1) q)) :=
  (dat1 V c).arrAt_eq_of_cover 8 _ (fun t _ => flushed1 V c t) cover1

end Region

end Cert.KernelIdeal.Hand

end
-- ==== Proof.HostMid.lean ====
/-
  What the second region finds in its operand arrays, and what the first region finds in its own.

  Between the launch and the first region one host operation joins the two weight matrices side by side. Between the
  two regions the host operations, in three stretches: cut the first region's result into its left and right halves
  of columns, build the edges' source and destination node lists (the self-loops appended) and count the degrees;
  choose the normalising factor (the inverse square root of the degree where it is positive, zero elsewhere);
  weight the edges, aggregate each half over them, and give each bias vector a leading unit axis. Read back one
  stretch at a time — each from arbitrary contents at its entry —: the node lists, the degree mask, the inverse root
  and the normalising factors are the reference's own stages of the edge list; each aggregated map is the reference's
  aggregation function `aggOf` of a half of the first region's result and those; each bias row is its bias vector
  recast; the fusion and output weights are as launched.
-/
import proofs.«128187_j1855425872278_1_alg».proof.Proof.Gen.KernelIdeal.Frame
import proofs.«128187_j1855425872278_1_alg».proof.Proof.RefSide
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first region's operands -/

/-- The feature array is as launched when the first region is entered. -/
theorem V1_main_arg0 (c : Dev nD) : V1 m ρ c main_arg0 = m ((c : Thread nD τ).loc main_arg0) := by
  show StableHlo.after hostOps0 (W0 m ρ c) (Proc.devRef .tc main_arg0) = _
  after_results

/-- The joined weight matrix: the two weight matrices side by side. -/
theorem V1_main_v0 (c : Dev nD) : V1 m ρ c main_v0
    = concatenate S256x256 1 [⟨S256x128, m ((c : Thread nD τ).loc main_arg3)⟩, ⟨S256x128, m ((c : Thread nD τ).loc main_arg5)⟩]
        concatenates_S256x128_S256x128_S256x256_d1 := by
  show StableHlo.after hostOps0 (W0 m ρ c) (Proc.devRef .tc main_v0) = _
  after_results

/-! ## The arguments at the first region's exit: as launched -/

theorem W2_main_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

theorem W2_main_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

theorem W2_main_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

theorem W2_main_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

theorem W2_main_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)

theorem W2_main_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)

theorem W2_main_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)

/-! ## After the first stretch: the node lists, the degree mask, the inverse root, the halves -/

/-- The edges' source nodes, the self-loops appended: the reference's own list of the edge list. -/
theorem W3_v7 (c : Dev nD) : W3 m ρ c (Proc.devRef .tc main_v7) = Cert.ReferenceIdeal.ReadP.val_main_v4 (F := Ideal) (W2 m ρ c (Proc.devRef .tc main_arg1)) := by
  show StableHlo.after hostOps1 (W2 m ρ c) (Proc.devRef .tc main_v7) = _
  generalize W2 m ρ c = U
  after_results
  rfl

/-- The edges' destination nodes, the self-loops appended. -/
theorem W3_v10 (c : Dev nD) : W3 m ρ c (Proc.devRef .tc main_v10) = Cert.ReferenceIdeal.ReadP.val_main_v7 (F := Ideal) (W2 m ρ c (Proc.devRef .tc main_arg1)) := by
  show StableHlo.after hostOps1 (W2 m ρ c) (Proc.devRef .tc main_v10) = _
  generalize W2 m ρ c = U
  after_results
  rfl

set_option maxHeartbeats 2000000 in
/-- Where the degree is positive. -/
theorem W3_v16 (c : Dev nD) : W3 m ρ c (Proc.devRef .tc main_v16) = Cert.ReferenceIdeal.ReadP.val_main_v13 (F := Ideal) (W2 m ρ c (Proc.devRef .tc main_arg1)) := by
  show StableHlo.after hostOps1 (W2 m ρ c) (Proc.devRef .tc main_v16) = _
  generalize W2 m ρ c = U
  after_results
  rfl

set_option maxHeartbeats 2000000 in
/-- The inverse square root of the degree. -/
theorem W3_v17 (c : Dev nD) : W3 m ρ c (Proc.devRef .tc main_v17) = Cert.ReferenceIdeal.ReadP.val_main_v14 (F := Ideal) (W2 m ρ c (Proc.devRef .tc main_arg1)) := by
  show StableHlo.after hostOps1 (W2 m ρ c) (Proc.devRef .tc main_v17) = _
  generalize W2 m ρ c = U
  after_results
  rfl

/-- The zero that stands where the degree is not positive. -/
theorem W3_cst_2 (c : Dev nD) : W3 m ρ c (Proc.devRef .tc main_cst_2) = Cert.ReferenceIdeal.ReadP.val_main_cst_2 (F := Ideal) := by
  show StableHlo.after hostOps1 (W2 m ρ c) (Proc.devRef .tc main_cst_2) = _
  generalize W2 m ρ c = U
  after_results
  rfl

/-- The left and right halves of the first region's result. -/
theorem W3_v2 (c : Dev nD) : W3 m ρ c (Proc.devRef .tc main_v2)
    = extractStridedSlice S100000x128 ![0, 0] (W2 m ρ c (Proc.devRef .tc main_v1) : S100000x256.Idx → Elt Ideal .f32) slices_S100000x256_S100000x128_0_0 := by
  show StableHlo.after hostOps1 (W2 m ρ c) (Proc.devRef .tc main_v2) = _
  generalize W2 m ρ c = U
  after_results
theorem W3_v3 (c : Dev nD) : W3 m ρ c (Proc.devRef .tc main_v3)
    = extractStridedSlice S100000x128 ![0, 128] (W2 m ρ c (Proc.devRef .tc main_v1) : S100000x256.Idx → Elt Ideal .f32) slices_S100000x256_S100000x128_0_128 := by
  show StableHlo.after hostOps1 (W2 m ρ c) (Proc.devRef .tc main_v3) = _
  generalize W2 m ρ c = U
  after_results

/-! ## After the second stretch: the normalising factors; the rest as it was -/

theorem W4_v2 (c : Dev nD) : W4 m ρ c (Proc.devRef .tc main_v2) = W3 m ρ c (Proc.devRef .tc main_v2) := by
  show StableHlo.after hostOps1_1 (W3 m ρ c) (Proc.devRef .tc main_v2) = W3 m ρ c (Proc.devRef .tc main_v2)
  generalize W3 m ρ c = U
  after_results

theorem W4_v3 (c : Dev nD) : W4 m ρ c (Proc.devRef .tc main_v3) = W3 m ρ c (Proc.devRef .tc main_v3) := by
  show StableHlo.after hostOps1_1 (W3 m ρ c) (Proc.devRef .tc main_v3) = W3 m ρ c (Proc.devRef .tc main_v3)
  generalize W3 m ρ c = U
  after_results

theorem W4_v7 (c : Dev nD) : W4 m ρ c (Proc.devRef .tc main_v7) = W3 m ρ c (Proc.devRef .tc main_v7) := by
  show StableHlo.after hostOps1_1 (W3 m ρ c) (Proc.devRef .tc main_v7) = W3 m ρ c (Proc.devRef .tc main_v7)
  generalize W3 m ρ c = U
  after_results

theorem W4_v10 (c : Dev nD) : W4 m ρ c (Proc.devRef .tc main_v10) = W3 m ρ c (Proc.devRef .tc main_v10) := by
  show StableHlo.after hostOps1_1 (W3 m ρ c) (Proc.devRef .tc main_v10) = W3 m ρ c (Proc.devRef .tc main_v10)
  generalize W3 m ρ c = U
  after_results

/-- The normalising factors, from the degree mask, the inverse root and the zero as the second stretch finds them:
    the inverse root where the mask is set, the zero elsewhere. -/
theorem W4_v18_of (c : Dev nD) : W4 m ρ c (Proc.devRef .tc main_v18)
    = select (W3 m ρ c (Proc.devRef .tc main_v16)) (W3 m ρ c (Proc.devRef .tc main_v17))
        (broadcastInDim S100000 ![] bcast_S_S100000 (id (W3 m ρ c (Proc.devRef .tc main_cst_2)))) := by
  show StableHlo.after hostOps1_1 (W3 m ρ c) (Proc.devRef .tc main_v18) = _
  generalize W3 m ρ c = U
  after_results
  rfl

/-- The normalising factors: the reference's own stage of the edge list. -/
theorem W4_v18 (c : Dev nD) : W4 m ρ c (Proc.devRef .tc main_v18) = Cert.ReferenceIdeal.ReadP.val_main_v15 (F := Ideal) (W2 m ρ c (Proc.devRef .tc main_arg1)) :=
  (W4_v18_of m ρ c).trans (by
    rw [W3_v16 m ρ c, W3_v17 m ρ c, W3_cst_2 m ρ c]
    rfl)

/-! ## After the third stretch: the second region's operands -/

/-- Each aggregated map is the aggregation function of a half, the two node lists and the normalising factors, as
    the third stretch finds them. -/
theorem W5_v56_of (c : Dev nD) : W5 m ρ c (Proc.devRef .tc main_v56)
    = Cert.ReferenceIdeal.Hand.aggOf (W4 m ρ c (Proc.devRef .tc main_v2)) (W4 m ρ c (Proc.devRef .tc main_v7)) (W4 m ρ c (Proc.devRef .tc main_v10)) (W4 m ρ c (Proc.devRef .tc main_v18)) := by
  show StableHlo.after hostOps1_2 (W4 m ρ c) (Proc.devRef .tc main_v56) = _
  generalize W4 m ρ c = U
  after_results_simp
  rfl
theorem W5_v59_of (c : Dev nD) : W5 m ρ c (Proc.devRef .tc main_v59)
    = Cert.ReferenceIdeal.Hand.aggOf (W4 m ρ c (Proc.devRef .tc main_v3)) (W4 m ρ c (Proc.devRef .tc main_v7)) (W4 m ρ c (Proc.devRef .tc main_v10)) (W4 m ρ c (Proc.devRef .tc main_v18)) := by
  show StableHlo.after hostOps1_2 (W4 m ρ c) (Proc.devRef .tc main_v59) = _
  generalize W4 m ρ c = U
  after_results_simp
  rfl

/-- The first aggregated map: the aggregation of the left half of the first region's result. -/
theorem W5_main_v56 (c : Dev nD) : W5 m ρ c (Proc.devRef .tc main_v56)
    = Cert.ReferenceIdeal.Hand.agg
        (extractStridedSlice S100000x128 ![0, 0] (W2 m ρ c (Proc.devRef .tc main_v1) : S100000x256.Idx → Elt Ideal .f32) slices_S100000x256_S100000x128_0_0)
        (W2 m ρ c (Proc.devRef .tc main_arg1)) :=
  (W5_v56_of m ρ c).trans (by
    rw [W4_v2 m ρ c, W3_v2 m ρ c, W4_v7 m ρ c, W3_v7 m ρ c, W4_v10 m ρ c, W3_v10 m ρ c, W4_v18 m ρ c]
    exact (Cert.ReferenceIdeal.Hand.agg_eq _ _).symm)

/-- The second aggregated map: the aggregation of the right half of the first region's result. -/
theorem W5_main_v59 (c : Dev nD) : W5 m ρ c (Proc.devRef .tc main_v59)
    = Cert.ReferenceIdeal.Hand.agg
        (extractStridedSlice S100000x128 ![0, 128] (W2 m ρ c (Proc.devRef .tc main_v1) : S100000x256.Idx → Elt Ideal .f32) slices_S100000x256_S100000x128_0_128)
        (W2 m ρ c (Proc.devRef .tc main_arg1)) :=
  (W5_v59_of m ρ c).trans (by
    rw [W4_v3 m ρ c, W3_v3 m ρ c, W4_v7 m ρ c, W3_v7 m ρ c, W4_v10 m ρ c, W3_v10 m ρ c, W4_v18 m ρ c]
    exact (Cert.ReferenceIdeal.Hand.agg_eq _ _).symm)

/-- The bias rows: the bias vectors with a leading unit axis. -/
theorem W5_main_v60 (c : Dev nD) : W5 m ρ c (Proc.devRef .tc main_v60)
    = shapeCast S1x128 (W2 m ρ c (Proc.devRef .tc main_arg4) : S128.Idx → Elt Ideal .f32) shapeCasts_S128_S1x128 := by
  show StableHlo.after hostOps1_2 (StableHlo.after hostOps1_1 (StableHlo.after hostOps1 (W2 m ρ c))) (Proc.devRef .tc main_v60) = _
  after_results_simp
  rfl
theorem W5_main_v61 (c : Dev nD) : W5 m ρ c (Proc.devRef .tc main_v61)
    = shapeCast S1x128 (W2 m ρ c (Proc.devRef .tc main_arg6) : S128.Idx → Elt Ideal .f32) shapeCasts_S128_S1x128 := by
  show StableHlo.after hostOps1_2 (StableHlo.after hostOps1_1 (StableHlo.after hostOps1 (W2 m ρ c))) (Proc.devRef .tc main_v61) = _
  after_results_simp
  rfl
theorem W5_main_v62 (c : Dev nD) : W5 m ρ c (Proc.devRef .tc main_v62)
    = shapeCast S1x64 (W2 m ρ c (Proc.devRef .tc main_arg8) : S64.Idx → Elt Ideal .f32) shapeCasts_S64_S1x64 := by
  show StableHlo.after hostOps1_2 (StableHlo.after hostOps1_1 (StableHlo.after hostOps1 (W2 m ρ c))) (Proc.devRef .tc main_v62) = _
  after_results_simp
  rfl
theorem W5_main_v63 (c : Dev nD) : W5 m ρ c (Proc.devRef .tc main_v63)
    = shapeCast S1x2 (W2 m ρ c (Proc.devRef .tc main_arg10) : S2.Idx → Elt Ideal .f32) shapeCasts_S2_S1x2 := by
  show StableHlo.after hostOps1_2 (StableHlo.after hostOps1_1 (StableHlo.after hostOps1 (W2 m ρ c))) (Proc.devRef .tc main_v63) = _
  after_results_simp
  rfl

/-- The fusion and output weights: as at the first region's exit. -/
theorem W5_main_arg7 (c : Dev nD) : W5 m ρ c (Proc.devRef .tc main_arg7) = W2 m ρ c (Proc.devRef .tc main_arg7) := by
  show StableHlo.after hostOps1_2 (StableHlo.after hostOps1_1 (StableHlo.after hostOps1 (W2 m ρ c))) (Proc.devRef .tc main_arg7) = _
  after_results_simp
theorem W5_main_arg9 (c : Dev nD) : W5 m ρ c (Proc.devRef .tc main_arg9) = W2 m ρ c (Proc.devRef .tc main_arg9) := by
  show StableHlo.after hostOps1_2 (StableHlo.after hostOps1_1 (StableHlo.after hostOps1 (W2 m ρ c))) (Proc.devRef .tc main_arg9) = _
  after_results_simp

end Cert.KernelIdeal.Hand

end
-- ==== Proof.ValueRun.lean ====
/-
  The run of the two-region program with its result named.

  The program is: one host operation (the two weight matrices joined side by side), the first region (the
  node features times the joined weights, twenty row blocks), the host operations that aggregate over the
  edges, and the second region (the two-layer classifier, twenty row blocks). Every weakly fair execution
  terminates without a fault; the result buffer ends at what the last boundary's contents hold there, and the
  argument arrays end as launched. The boundary contents are the fold `W0 … W6` of the generated frame module:
  a host stretch rewrites the buffers its operations write, a region leaves each of its arrays at what its
  write-backs fold to.
-/
import proofs.«128187_j1855425872278_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer holds the last boundary's
    contents `W6` at it, and every argument array is as launched. -/
theorem run_result : θ_run defs (onTc (τ := τ) (main (F := F))) ⟨m, fun _ => 0, ρ⟩ (fun r => ∀ c : Dev nD,
      r.2.mem ((c.tc : Thread nD τ).loc main_v64) = W6 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v64 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Hand

end
-- ==== Proof.KernelValue.lean ====
/-
  The kernel's result, as a function of the launch memory.

  The first region leaves the node features times the two weight matrices joined side by side. Its left half of
  columns is the features times the first weight matrix and its right half the features times the second: entry
  `(r, j)` of the joined product is `Σ_k x(r,k) · [W_homo | W_het](k, j)`, and column `j` of the joined matrix is column
  `j` of the first matrix for `j < 128` and column `j − 128` of the second otherwise — the same sum of the same terms.
  The host operations between the regions aggregate each half over the edges; a bias row is its bias vector with a
  leading unit axis, so its entry `(0, k)` is the vector's entry `k`. The second region leaves the specification's
  logits of those operands. So the result buffer ends at the specification's logits of the aggregations of the two
  products, the biases and the weights as launched.
-/
import proofs.«128187_j1855425872278_1_alg».proof.Proof.Gen.KernelIdeal.Frame
import proofs.«128187_j1855425872278_1_alg».proof.Proof.Spec
import proofs.«128187_j1855425872278_1_alg».proof.Proof.Region0
import proofs.«128187_j1855425872278_1_alg».proof.Proof.Region1
import proofs.«128187_j1855425872278_1_alg».proof.Proof.HostMid
import proofs.«128187_j1855425872278_1_alg».proof.Proof.ValueRun
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Spec (logits Mat)

/-! ## The two halves of the joined product -/

/-- The left 128 columns of `x · [w3 | w5]` are `x · w3`. -/
theorem left_half (x : Mat 100000 256) (w3 w5 : Mat 256 128) :
    extractStridedSlice S100000x128 ![0, 0]
        (Cert.Spec.prod (M := 100000) (K := 256) (N := 256) x
          (concatenate S256x256 1 [⟨S256x128, w3⟩, ⟨S256x128, w5⟩] concatenates_S256x128_S256x128_S256x256_d1))
        slices_S100000x256_S100000x128_0_0
      = Cert.Spec.prod (M := 100000) (K := 256) (N := 128) x w3 := by
  funext i
  obtain ⟨r, j, rfl⟩ : ∃ (r : Fin 100000) (j : Fin 128), i = ix2 r j := ⟨i 0, i 1, eq_ix2 i⟩
  refine (slice2_axis1_eq 0 _ slices_S100000x256_S100000x128_0_0 r j).trans ?_
  simp only [Cert.Spec.prod, Cert.Spec.dotAt]
  refine Finset.sum_congr rfl fun k _ => ?_
  refine congrArg₂ (· * ·) rfl ?_
  refine concatenate_pair_apply_left (t := S256x256) (s₁ := S256x128) (s₂ := S256x128) (1 : Fin 2) w3 w5 concatenates_S256x128_S256x128_S256x256_d1 _ rfl (ix2 k j) ?_
  intro b
  match b with
  | ⟨0, _⟩ => rfl
  | ⟨1, _⟩ => show j.val = 0 + j.val; exact (Nat.zero_add _).symm

/-- The right 128 columns of `x · [w3 | w5]` are `x · w5`. -/
theorem right_half (x : Mat 100000 256) (w3 w5 : Mat 256 128) :
    extractStridedSlice S100000x128 ![0, 128]
        (Cert.Spec.prod (M := 100000) (K := 256) (N := 256) x
          (concatenate S256x256 1 [⟨S256x128, w3⟩, ⟨S256x128, w5⟩] concatenates_S256x128_S256x128_S256x256_d1))
        slices_S100000x256_S100000x128_0_128
      = Cert.Spec.prod (M := 100000) (K := 256) (N := 128) x w5 := by
  funext i
  obtain ⟨r, j, rfl⟩ : ∃ (r : Fin 100000) (j : Fin 128), i = ix2 r j := ⟨i 0, i 1, eq_ix2 i⟩
  refine (slice2_axis1_eq 128 _ slices_S100000x256_S100000x128_0_128 r j).trans ?_
  simp only [Cert.Spec.prod, Cert.Spec.dotAt]
  refine Finset.sum_congr rfl fun k _ => ?_
  refine congrArg₂ (· * ·) rfl ?_
  refine concatenate_pair_apply_right (t := S256x256) (s₁ := S256x128) (s₂ := S256x128) (1 : Fin 2) w3 w5 concatenates_S256x128_S256x128_S256x256_d1 _ rfl rfl (ix2 k j) ?_ ?_
  · intro b hb
    match b, hb with
    | ⟨0, _⟩, _ => rfl
    | ⟨1, _⟩, hb => exact absurd rfl hb
  · show j.val + 128 = 128 + j.val
    exact Nat.add_comm _ _

/-! ## The result, from the launch memory -/

variable (m : (ℓ : Loc nD τ sig) → Buf (Elt Ideal) ℓ) (ρ : Dev nD → PrngReg)

/-- THE RESULT as a function of the launch memory: the specification's logits of the aggregations, over the edge
    list, of the features times each weight matrix; the biases and the two layers' weights as launched. -/
def G (c : Dev nD) : Buf (Elt Ideal) ((c.tc : Thread nD τ).loc main_v64) :=
  (logits (M := 100000)
      (Cert.ReferenceIdeal.Hand.agg (Cert.Spec.prod (M := 100000) (K := 256) (N := 128) (m ((c : Thread nD τ).loc main_arg0)) (m ((c : Thread nD τ).loc main_arg3))) (m ((c : Thread nD τ).loc main_arg1)))
      (Cert.ReferenceIdeal.Hand.agg (Cert.Spec.prod (M := 100000) (K := 256) (N := 128) (m ((c : Thread nD τ).loc main_arg0)) (m ((c : Thread nD τ).loc main_arg5))) (m ((c : Thread nD τ).loc main_arg1)))
      (fun k => ((m ((c : Thread nD τ).loc main_arg4)) : S128.Idx → Elt Ideal .f32) (ix1 k)) (fun k => ((m ((c : Thread nD τ).loc main_arg6)) : S128.Idx → Elt Ideal .f32) (ix1 k))
      (m ((c : Thread nD τ).loc main_arg7)) (fun j => ((m ((c : Thread nD τ).loc main_arg8)) : S64.Idx → Elt Ideal .f32) (ix1 j))
      (m ((c : Thread nD τ).loc main_arg9)) (fun q => ((m ((c : Thread nD τ).loc main_arg10)) : S2.Idx → Elt Ideal .f32) (ix1 q)))

/-- The first region's result array at its exit: the features times the joined weights. -/
theorem W2_main_v1 (c : Dev nD) : (W2 m ρ c (Proc.devRef .tc main_v1) : S100000x256.Idx → Elt Ideal .f32)
    = Cert.Spec.prod (M := 100000) (K := 256) (N := 256) (m ((c : Thread nD τ).loc main_arg0))
        (concatenate S256x256 1 [⟨S256x128, (m ((c : Thread nD τ).loc main_arg3))⟩, ⟨S256x128, (m ((c : Thread nD τ).loc main_arg5))⟩] concatenates_S256x128_S256x128_S256x256_d1) :=
  (W2_arr m ρ c 2).trans ((final0 (V1 m ρ) c).trans (by rw [V1_main_arg0 m ρ c, V1_main_v0 m ρ c]))

/-- A bias row read at `(0, k)` is the bias vector at `k`. -/
theorem row128 (b : S128.Idx → Elt Ideal .f32) :
    (fun k : Fin 128 => shapeCast S1x128 b shapeCasts_S128_S1x128 (ix2 (0 : Fin 1) k)) = fun k => b (ix1 k) :=
  funext fun k => shapeCast_a_1a_apply b shapeCasts_S128_S1x128 0 k
theorem row64 (b : S64.Idx → Elt Ideal .f32) :
    (fun k : Fin 64 => shapeCast S1x64 b shapeCasts_S64_S1x64 (ix2 (0 : Fin 1) k)) = fun k => b (ix1 k) :=
  funext fun k => shapeCast_a_1a_apply b shapeCasts_S64_S1x64 0 k
theorem row2 (b : S2.Idx → Elt Ideal .f32) :
    (fun k : Fin 2 => shapeCast S1x2 b shapeCasts_S2_S1x2 (ix2 (0 : Fin 1) k)) = fun k => b (ix1 k) :=
  funext fun k => shapeCast_a_1a_apply b shapeCasts_S2_S1x2 0 k

/-- THE KERNEL'S RESULT: the result buffer at the last boundary is the specification's logits of the aggregations of
    the two products. -/
theorem result (c : Dev nD) : W6 m ρ c (Proc.devRef .tc main_v64) = G m c := by
  unfold G
  refine (W6_arr m ρ c 8).trans ?_
  refine (final1 (V5 m ρ) c).trans ?_
  show logits (M := 100000) (W5 m ρ c (Proc.devRef .tc main_v56)) (W5 m ρ c (Proc.devRef .tc main_v59))
      (fun k => (W5 m ρ c (Proc.devRef .tc main_v60) : S1x128.Idx → Elt Ideal .f32) (ix2 (0 : Fin 1) k))
      (fun k => (W5 m ρ c (Proc.devRef .tc main_v61) : S1x128.Idx → Elt Ideal .f32) (ix2 (0 : Fin 1) k))
      (W5 m ρ c (Proc.devRef .tc main_arg7))
      (fun j => (W5 m ρ c (Proc.devRef .tc main_v62) : S1x64.Idx → Elt Ideal .f32) (ix2 (0 : Fin 1) j))
      (W5 m ρ c (Proc.devRef .tc main_arg9))
      (fun q => (W5 m ρ c (Proc.devRef .tc main_v63) : S1x2.Idx → Elt Ideal .f32) (ix2 (0 : Fin 1) q)) = _
  rw [W5_main_v56 m ρ c, W5_main_v59 m ρ c, W5_main_v60 m ρ c, W5_main_v61 m ρ c, W5_main_v62 m ρ c, W5_main_v63 m ρ c,
    W5_main_arg7 m ρ c, W5_main_arg9 m ρ c]
  rw [W2_main_v1 m ρ c, W2_main_arg1 m ρ c, W2_main_arg4 m ρ c, W2_main_arg6 m ρ c, W2_main_arg7 m ρ c, W2_main_arg8 m ρ c,
    W2_main_arg9 m ρ c, W2_main_arg10 m ρ c]
  rw [left_half, right_half, row128, row128, row64, row2]

/-- THE KERNEL'S RUN, READ: every weakly fair execution terminates with the result buffer at the specification's
    logits and the argument arrays as launched. -/
theorem run : θ_run defs (onTc (τ := τ) (main (F := Ideal))) ⟨m, fun _ => 0, ρ⟩ (fun r => ∀ c : Dev nD,
      r.2.mem ((c.tc : Thread nD τ).loc main_v64) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩) (run_result m ρ)

end Cert.KernelIdeal.Hand

end
-- ==== Proof.lean ====
/-
  The claim: the kernel against its reference, over the extended reals.

  Both programs compute a two-branch graph convolution followed by a two-layer classifier. For each of two weight
  matrices `W`: the node features times `W`; the aggregation over the edges (with a self-loop per node) of that
  product — rows gathered at the source nodes, scaled by `deg(src)^(-1/2) · deg(dst)^(-1/2)` with the degree counted
  at the destination nodes and `0` in place of the inverse square root where the degree is not positive,
  scatter-added at the destination nodes —; bias and `max(·, 0)`. Then the half-and-half sum of the two branches, the
  fusion layer with `max(·, 0)`, and the output layer.

  The kernel forms both products at once, against the two weight matrices joined side by side, in twenty row
  blocks, and cuts the result in two; it computes the edges' weights once; it runs the classifier in twenty row
  blocks. The reference forms the two products and the two sets of edge weights separately and runs the classifier
  on the whole arrays. At the ideal values a change of float format is the identity and a matrix product is the sum
  over the contracted column, so: a half of the joined product is the product with that half's matrix (the same sum
  of the same terms); the aggregation is one and the same function on both sides, applied to equal products and the
  same edge list, and is never opened; and the classifier, row by row, is one and the same formula. No law that
  fails at an infinity is used, so the finiteness of the inputs is not needed for the values.

  The three frames: the kernel's two, word-level and ideal, are the generated frame certificates; the reference has
  no kernel, and its frame is its run with the result dropped. The ideal pass rewrote nothing, so `preserves` is
  `True`.
-/
import proofs.«128187_j1855425872278_1_alg».proof.Defs
import proofs.«128187_j1855425872278_1_alg».proof.Proof.Gen.Kernel
import proofs.«128187_j1855425872278_1_alg».proof.Proof.Gen.Kernel.Skeleton
import proofs.«128187_j1855425872278_1_alg».proof.Proof.Gen.Kernel.Launch
import proofs.«128187_j1855425872278_1_alg».proof.Proof.Gen.Kernel.Points
import proofs.«128187_j1855425872278_1_alg».proof.Proof.Gen.Kernel.Frame
import proofs.«128187_j1855425872278_1_alg».proof.Proof.Gen.KernelIdeal
import proofs.«128187_j1855425872278_1_alg».proof.Proof.Gen.KernelIdeal.Skeleton
import proofs.«128187_j1855425872278_1_alg».proof.Proof.Gen.KernelIdeal.Launch
import proofs.«128187_j1855425872278_1_alg».proof.Proof.Gen.KernelIdeal.Points
import proofs.«128187_j1855425872278_1_alg».proof.Proof.Gen.KernelIdeal.Frame
import proofs.«128187_j1855425872278_1_alg».proof.Proof.Gen.ReferenceIdeal
import proofs.«128187_j1855425872278_1_alg».proof.Proof.Gen.Pre_finite_inputs
import proofs.«128187_j1855425872278_1_alg».proof.Proof.RefRunP
import proofs.«128187_j1855425872278_1_alg».proof.Proof.RefReadP
import proofs.«128187_j1855425872278_1_alg».proof.Proof.RefSide
import proofs.«128187_j1855425872278_1_alg».proof.Proof.KernelValue
import Idealize.ShloMosaic.Adequacy
import Idealize.ShloMosaic.Init

noncomputable section

namespace Cert.Proof

open Idealize.ShloMosaic Idealize.SL.Sem

/-- The word-level kernel runs and leaves its arguments: the generated frame certificate. -/
theorem frame_kernel : Cert.frame_Kernel := fun m ρ _ => Cert.Kernel.Gen.frame m ρ

/-- The idealized kernel runs and leaves its arguments: the generated frame certificate. -/
theorem frame_kernelIdeal : Cert.frame_KernelIdeal := fun m ρ _ => Cert.KernelIdeal.Gen.frame m ρ

/-- The idealized reference runs and leaves its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs run and end with the same result: the
    specification's logits of the aggregations of the two products. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v109_eq, Cert.ReferenceIdeal.Hand.result_eq, h0, h1, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
